-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S_ : Shape := ⟨0, ![]⟩
abbrev S8192 : Shape := ⟨1, ![8192]⟩
abbrev S1x8192 : Shape := ⟨2, ![1, 8192]⟩
abbrev S8192x8192 : Shape := ⟨2, ![8192, 8192]⟩
abbrev S1024x128 : Shape := ⟨2, ![1024, 128]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S1x8192, .f32⟩
  | .hbm, ⟨6, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S8192x128_S8192_d1 : S8192x128.ReducesTo [1] S8192
  h_S_ : 0 < S_.numel
  bcast_S8192_S1x8192_1 : S8192.BroadcastsInDim S1x8192 (![1] : Fin 1 → Fin S1x8192.rank)
  inb_S1024x128_S1024x128_0_0 : ∀ a, (![0, 0] : Fin 2 → Nat) a + S1024x128.size a ≤ S1024x128.size a
  h_S1024x128 : 0 < S1024x128.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1024x128_S1024 : S1024x128.Reduces [1] S1024
  shapeCasts_S1024_S1024x1 : S1024.ShapeCasts S1024x1
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.RbfSpec.lean ====
/-
  The Gaussian (radial basis function) kernel matrix of two point sets, as one function of the two arrays.

  For x, y : [8192, 128] over the extended reals, the entry (p, q) is
      exp (−1 · max (‖x_p‖² + ‖y_q‖² − 2 · ⟨x_p, y_q⟩) 0),
  with ‖x_p‖² = ∑ₖ x (p, k)², ‖y_q‖² = ∑ₖ y (q, k)² and ⟨x_p, y_q⟩ = ∑ₖ x (p, k) · y (q, k), all sums over the 128
  coordinates, taken in the extended reals' commutative addition. The two scale factors −1 and 2 are kept as the
  float words both programs spell; nothing in the comparison needs their values.
-/
import Idealize.ShloMosaic.Lib.ValueIdx
import Idealize.ShloMosaic.PureOps.Ideal

noncomputable section

open scoped BigOperators

namespace Cert.Rbf

open Idealize.ShloMosaic Idealize.ShloMosaic.ValueIdx

/-- The squared Euclidean norm of row `p` of an [8192, 128] array. -/
def sqNorm (x : FVec Ideal ⟨2, ![8192, 128]⟩ .f32) (p : Fin 8192) : EReal :=
  ∑ k : Fin 128, x (ix2 p k) * x (ix2 p k)

/-- The inner product of row `p` of `x` with row `q` of `y`. -/
def inner (x y : FVec Ideal ⟨2, ![8192, 128]⟩ .f32) (p q : Fin 8192) : EReal :=
  ∑ k : Fin 128, x (ix2 p k) * y (ix2 q k)

/-- The Gaussian kernel matrix: at (p, q), exp (−1 · max (‖x_p‖² + ‖y_q‖² − 2 · ⟨x_p, y_q⟩) 0). -/
def gauss (x y : FVec Ideal ⟨2, ![8192, 128]⟩ .f32) : FVec Ideal ⟨2, ![8192, 8192]⟩ .f32 := fun i =>
  Ideal.exp (Ideal.ofBits .f32 0xBF800000#32 *
    max ((sqNorm x (i 0) + sqNorm y (i 1)) - Ideal.ofBits .f32 0x40000000#32 * inner x y (i 0) (i 1)) 0)

end Cert.Rbf

end
-- ==== Proof.RefValue.lean ====
/-
  The reference program's result, read one operation at a time, is the Gaussian kernel matrix `Cert.Rbf.gauss`.

  The reference sums the squares of each row of x and of y (from a zero initial value), takes all inner products by one
  contraction over the 128 coordinates, spreads the two norm vectors over rows and columns, and applies
  exp (−1 · max (· − 2 · ·) 0) entry by entry. Read at an index (p, q) each spread picks the row p or the column q, so the
  entry is the specification's; the zero initial values drop out by 0 + s = s.
-/
import proofs.«104395_j65481071405325_2_alg».proof.Proof.Gen.ReferenceIdeal.Read
import proofs.«104395_j65481071405325_2_alg».proof.Proof.RbfSpec
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- The row of x whose squares are summed for entry `i` is row `i 0`. -/
theorem idx_x2 (i : S8192x8192.Idx) (k : Fin 128) : idx_main_v1 (idx_main_v5 (idx_main_v7 i)) k = ix2 (i 0) k :=
  funext fun a => Fin.ext (by match a with | ⟨0, _⟩ => rfl | ⟨1, _⟩ => rfl)

/-- The row of y whose squares are summed for entry `i` is row `i 1`. -/
theorem idx_y2 (i : S8192x8192.Idx) (k : Fin 128) : idx_main_v3 (idx_main_v6 (idx_main_v8 i)) k = ix2 (i 1) k :=
  funext fun a => Fin.ext (by match a with | ⟨0, _⟩ => rfl | ⟨1, _⟩ => rfl)

/-- The contraction's left operand for entry `i` is row `i 0` of x. -/
theorem idx_l (i : S8192x8192.Idx) (k : Fin 128) : lidx_main_v4 i k = ix2 (i 0) k :=
  funext fun a => Fin.ext (by match a with | ⟨0, _⟩ => rfl | ⟨1, _⟩ => rfl)

/-- The contraction's right operand for entry `i` is row `i 1` of y. -/
theorem idx_r (i : S8192x8192.Idx) (k : Fin 128) : ridx_main_v4 i k = ix2 (i 1) k :=
  funext fun a => Fin.ext (by match a with | ⟨0, _⟩ => rfl | ⟨1, _⟩ => rfl)

/-- The reference's result is the Gaussian kernel matrix of its two arguments. -/
theorem result_eq (x y : FVec Ideal S8192x128 .f32) : val_main_v17 (F := Ideal) x y = Cert.Rbf.gauss x y := by
  funext i
  rw [val_main_v17_apply, val_main_v16_apply, val_main_v15_apply, val_main_cst_3_apply, val_main_v14_apply,
    val_main_v13_apply, val_main_cst_2_apply, val_main_v12_apply, val_main_v9_apply, val_main_v11_apply,
    val_main_v10_apply, val_main_cst_1_apply, val_main_v4_apply, val_main_v7_apply, val_main_v5_apply,
    val_main_v1_apply, val_main_v8_apply, val_main_v6_apply, val_main_v3_apply, val_main_cst_apply, val_main_cst_0_apply]
  simp only [val_main_v0_apply, val_main_v2_apply, idx_x2, idx_y2, idx_l, idx_r, Ideal.hostUnary_exp_def, Ideal.mulf_def,
    Ideal.maximumf_def, Ideal.subf_def, Ideal.addf_def, Ideal.ofBits_def, Ideal.ofBits_zero_f32, zero_add]
  rfl

end Cert.ReferenceIdeal.RefValue

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«104395_j65481071405325_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.Tile.lean ====
/-
  One tile of the kernel, read at an entry.

  The body works on a [1024, 128] block a of x rows, a [1024, 128] block b of y rows and a [1, 1024] row n of
  precomputed squared norms of those y rows. It sums the squares along each row of a (kept as a column), takes all
  inner products of rows of a with rows of b in one product contracted over both last axes into a zero accumulator,
  spreads the column along the rows and the row n down the columns, and stores exp (−1 · max (‖a_p‖² + n_q − 2 · ⟨a_p, b_q⟩) 0).
  At the exact instance the row sum and the contraction are plain sums over the 128 coordinates, so the entry (p, q) of
  the tile is that expression with ‖a_p‖² = ∑ₖ a (p, k)² and ⟨a_p, b_q⟩ = ∑ₖ a (p, k) · b (q, k).
-/
import proofs.«104395_j65481071405325_2_alg».proof.Proof.Gen.KernelIdeal.Skeleton
import proofs.«104395_j65481071405325_2_alg».proof.Proof.LibColumns
import Idealize.ShloMosaic.Lib.Pipeline.Value
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The tile's stored value at (p, q): exp (−1 · max (∑ₖ a (p, k)² + n (0, q) − 2 · ∑ₖ a (p, k) · b (q, k)) 0). -/
theorem entry (a b : FVec Ideal S1024x128 .f32) (n : FVec Ideal S1x1024 .f32) (p q : Fin 1024) :
    k0_pay1 (F := Ideal) a b n (ix2 p q)
      = Ideal.exp (Ideal.ofBits .f32 0xBF800000#32 *
          max (((∑ k : Fin 128, a (ix2 p k) * a (ix2 p k)) + n (ix2 (0 : Fin 1) q))
              - Ideal.ofBits .f32 0x40000000#32 * ∑ k : Fin 128, a (ix2 p k) * b (ix2 q k)) 0) := by
  unfold k0_pay1
  refine congrArg Ideal.exp (congrArg (Ideal.ofBits .f32 0xBF800000#32 * ·) (congrArg₂ max
    (congrArg₂ (· - ·) (congrArg₂ (· + ·) ?_ ?_) (congrArg (Ideal.ofBits .f32 0x40000000#32 * ·) ?_)) Ideal.ofBits_zero_f32))
  · exact (Cert.Columns.broadcastTo_a1_ab_apply _ broadcasts_S1024x1_S1024x1024 p q).trans
      (Cert.Columns.keepdimsSum_apply (mulf a a) 0x00000000#32 reduces_S1024x128_S1024 (.inl rfl) rfl shapeCasts_S1024_S1024x1 p 0)
  · exact (broadcastTo_1b_ab_apply _ broadcasts_S1x1024_S1024x1024 p q).trans
      (congrFun (shapeCast_self n shapeCasts_S1x1024_S1x1024) (ix2 (0 : Fin 1) q))
  · exact Cert.DenseRows.matmulT_zero_apply (some .fp32) a b p q

end Cert.KernelIdeal.Tile

end
-- ==== Proof.YNorms.lean ====
/-
  The row of squared norms of y's rows that the program prepares before the grid starts.

  Ahead of the tiled computation the program squares y entry by entry, sums each row from a zero initial value, and lays
  the 8192 sums out as one [1, 8192] row. Read at (0, j) the row holds 0 + ∑ₖ y (j, k)² = ‖y_j‖².
-/
import proofs.«104395_j65481071405325_2_alg».proof.Proof.Gen.KernelIdeal
import proofs.«104395_j65481071405325_2_alg».proof.Proof.RbfSpec
import Idealize.ShloMosaic.Lib.Pipeline.Value
import Idealize.ShloMosaic.PureOps.Ideal.Laws

noncomputable section

open scoped BigOperators

namespace Cert.KernelIdeal.YNorms

open Cert.KernelIdeal Cert.KernelIdeal.Gen Idealize.ShloMosaic Idealize.ShloMosaic.ValueIdx

/-- The prepared row: the row sums of y ∘ y from a zero initial value, laid out as [1, 8192]. -/
def row (y : FVec Ideal S8192x128 .f32) : FVec Ideal S1x8192 .f32 :=
  broadcastInDim S1x8192 ![1] bcast_S8192_S1x8192_1
    (Host.reduceAdd (F := Ideal) (mulf y y) (constant (F := Ideal) S_ .f32 0x00000000#32) reducesTo_S8192x128_S8192_d1 h_S_)

/-- Its entry at column j is the squared norm of row j of y. -/
theorem row_apply (y : FVec Ideal S8192x128 .f32) (u : Fin 1) (j : Fin 8192) : row y (ix2 u j) = Cert.Rbf.sqNorm y j := by
  unfold row
  refine (broadcastInDim_apply _ bcast_S8192_S1x8192_1 _ (ix2 u j) (ix1 j) (fun a => match a with
    | ⟨0, _⟩ => by show j.val = if (8192 : Nat) = 1 then 0 else j.val; rw [if_neg (by decide)])).trans ?_
  simp only [Host.reduceAdd, Ideal.hostReduceAdd_def]
  rw [Ideal.hostReduceAdd_single reducesTo_S8192x128_S8192_d1 (by decide)]
  refine (congrArg₂ (· + ·) Ideal.ofBits_zero_f32 (Finset.sum_congr rfl fun k _ => ?_)).trans (zero_add _)
  exact congrArg (fun i => y i * y i) (funext fun a => Fin.ext (by match a with | ⟨0, _⟩ => rfl | ⟨1, _⟩ => rfl))

end Cert.KernelIdeal.YNorms

end
-- ==== Proof.Whole.lean ====
/-
  From tiles to the whole matrix.

  The 8 × 8 grid's point (I, J) works on rows 1024·I … 1024·I + 1023 of x, rows 1024·J … 1024·J + 1023 of y and columns
  1024·J … of the prepared row of norms, and writes the tile (I, J) of the [8192, 8192] result. Entry (p, q) of that tile
  is the tile formula on those blocks, which is the Gaussian kernel matrix at (1024·I + p, 1024·J + q): the block of x
  supplies row 1024·I + p, the block of y row 1024·J + q, and the norms' block the squared norm of that row of y. The 64
  tiles cover the result (entry (r, s) lies in tile (r / 1024, s / 1024)), so after the run the result array is the
  Gaussian kernel matrix of the two arguments.
-/
import proofs.«104395_j65481071405325_2_alg».proof.Proof.Gen.KernelIdeal.Value
import proofs.«104395_j65481071405325_2_alg».proof.Proof.Tile
import proofs.«104395_j65481071405325_2_alg».proof.Proof.YNorms
import proofs.«104395_j65481071405325_2_alg».proof.Proof.RbfSpec
import Idealize.ShloMosaic.Lib.Pipeline.Value
import Idealize.ShloMosaic.Lib.StableHlo.Run
import Idealize.ShloMosaic.Lib.Tactic

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## Which blocks a grid point works on -/

/-- Over the 64 grid points: the x block's row index is the output tile's row index, the y block's and the norm block's
    the output tile's column index; the other block indices are zero; the tile indices are below 8. -/
theorem blocks_at : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) < 8 ∧ win0_3.index t (1 : Fin 2) < 8 :=
  (by decide +kernel : ∀ t : Fin grid0.N, _)

/-- Every tile (I, J) of the 8 × 8 tiling is some grid point's. -/
theorem tile_of : ∀ (I J : Fin 8), ∃ t : Fin cfg0.N, win0_3.index t = ![I.val, J.val] :=
  (by decide +kernel : ∀ (I J : Fin 8), ∃ t : Fin grid0.N, win0_3.index t = ![I.val, J.val])

/-! ## The arrays the grid reads -/

/-- When the grid starts, the third operand's array is the prepared row of y's squared norms. -/
theorem norms_array (c : Dev nD) :
    (V m c main_v2 : S1x8192.Idx → EReal) = YNorms.row (m ((c : Thread nD τ).loc main_arg1)) := by
  unfold YNorms.row
  dsimp only [V, hostOps0]
  after_results

/-- The x block at a grid point, at (p, k), is x at row 1024·I + p. -/
theorem xblock_apply (c : Dev nD) (t : Fin cfg0.N) (p : Fin 1024) (k : Fin 128) (r : Fin 8192)
    (hr : r.val = win0_3.index t (0 : Fin 2) * 1024 + p.val) :
    (iblk m c 0 t : Vec Ideal S1024x128 .f32) (ix2 p k)
      = (m ((c : Thread nD τ).loc main_arg0) : S8192x128.Idx → EReal) (ix2 r k) := by
  unfold iblk
  rw [View.read_apply]
  show V m c main_arg0 _ = _
  rw [V_main_arg0 m c]
  refine congrArg _ (funext fun a => Fin.ext ?_)
  obtain ⟨e0, e1, -⟩ := blocks_at t
  match a with
  | ⟨0, _⟩ => show win0_0.index t (0 : Fin 2) * 1024 + 1 * p.val = r.val; omega
  | ⟨1, _⟩ => show win0_0.index t (1 : Fin 2) * 128 + 1 * k.val = k.val; omega

/-- The y block at a grid point, at (q, k), is y at row 1024·J + q. -/
theorem yblock_apply (c : Dev nD) (t : Fin cfg0.N) (q : Fin 1024) (k : Fin 128) (s : Fin 8192)
    (hs : s.val = win0_3.index t (1 : Fin 2) * 1024 + q.val) :
    (iblk m c 1 t : Vec Ideal S1024x128 .f32) (ix2 q k)
      = (m ((c : Thread nD τ).loc main_arg1) : S8192x128.Idx → EReal) (ix2 s k) := by
  unfold iblk
  rw [View.read_apply]
  show V m c main_arg1 _ = _
  rw [V_main_arg1 m c]
  refine congrArg _ (funext fun a => Fin.ext ?_)
  obtain ⟨-, -, e2, e3, -⟩ := blocks_at t
  match a with
  | ⟨0, _⟩ => show win0_1.index t (0 : Fin 2) * 1024 + 1 * q.val = s.val; omega
  | ⟨1, _⟩ => show win0_1.index t (1 : Fin 2) * 128 + 1 * k.val = k.val; omega

/-- The norms' block at a grid point, at (0, q), is the squared norm of row 1024·J + q of y. -/
theorem nblock_apply (c : Dev nD) (t : Fin cfg0.N) (q : Fin 1024) (s : Fin 8192)
    (hs : s.val = win0_3.index t (1 : Fin 2) * 1024 + q.val) :
    (iblk m c 2 t : Vec Ideal S1x1024 .f32) (ix2 (0 : Fin 1) q)
      = Cert.Rbf.sqNorm (m ((c : Thread nD τ).loc main_arg1)) s := by
  refine Eq.trans ?_ (YNorms.row_apply (m ((c : Thread nD τ).loc main_arg1)) 0 s)
  unfold iblk
  rw [View.read_apply]
  show V m c main_v2 _ = _
  rw [norms_array m c]
  refine congrArg _ (funext fun a => Fin.ext ?_)
  obtain ⟨-, -, -, -, e4, e5, -⟩ := blocks_at t
  match a with
  | ⟨0, _⟩ => show win0_2.index t (0 : Fin 2) * 1 + 1 * 0 = 0; omega
  | ⟨1, _⟩ => show win0_2.index t (1 : Fin 2) * 1024 + 1 * q.val = s.val; omega

/-! ## What a grid point writes back -/

/-- Grid point t writes back tile t of the Gaussian kernel matrix of the two arguments. -/
theorem flushed_eq (c : Dev nD) (t : Fin cfg0.N) :
    (dats m 0 c).flushed 3 t = ((cfg0.win 3).blk t).view.read (Elt Ideal)
      (Cert.Rbf.gauss (m ((c : Thread nD τ).loc main_arg0)) (m ((c : Thread nD τ).loc main_arg1))) := by
  rw [Cert.KernelIdeal.Value.flushed3]
  unfold out0_3
  rw [View.canon_unit_zero origin]
  simp only [View.ld_unit_zero (S := S1024x128) origin, View.ld_unit_zero (S := S1x1024) origin]
  funext j
  obtain ⟨p, q, rfl⟩ : ∃ (p q : Fin 1024), j = ix2 p q := ⟨j 0, j 1, eq_ix2 j⟩
  obtain ⟨-, -, -, -, -, -, b0, b1⟩ := blocks_at t
  have hr : win0_3.index t (0 : Fin 2) * 1024 + p.val < 8192 := by omega
  have hs : win0_3.index t (1 : Fin 2) * 1024 + q.val < 8192 := by omega
  have hemb : ((cfg0.win 3).blk t).view.emb (ix2 p q)
      = ix2 (⟨win0_3.index t (0 : Fin 2) * 1024 + p.val, hr⟩ : Fin 8192)
          (⟨win0_3.index t (1 : Fin 2) * 1024 + q.val, hs⟩ : Fin 8192) :=
    funext fun a => Fin.ext (by
      match a with
      | ⟨0, _⟩ => show win0_3.index t (0 : Fin 2) * 1024 + 1 * p.val = win0_3.index t (0 : Fin 2) * 1024 + p.val; omega
      | ⟨1, _⟩ => show win0_3.index t (1 : Fin 2) * 1024 + 1 * q.val = win0_3.index t (1 : Fin 2) * 1024 + q.val; omega)
  show k0_pay1 (iblk m c 0 t) (iblk m c 1 t) (iblk m c 2 t) (ix2 p q)
    = Cert.Rbf.gauss _ _ (((cfg0.win 3).blk t).view.emb (ix2 p q))
  rw [hemb]
  refine (Tile.entry (iblk m c 0 t) (iblk m c 1 t) (iblk m c 2 t) p q).trans ?_
  unfold Cert.Rbf.gauss Cert.Rbf.sqNorm Cert.Rbf.inner
  refine congrArg Ideal.exp (congrArg (Ideal.ofBits .f32 0xBF800000#32 * ·) (congrArg₂ max
    (congrArg₂ (· - ·) (congrArg₂ (· + ·) ?_ ?_) (congrArg (Ideal.ofBits .f32 0x40000000#32 * ·) ?_)) rfl))
  · exact Finset.sum_congr rfl fun k _ => by rw [xblock_apply m c t p k ⟨_, hr⟩ rfl]
  · exact nblock_apply m c t q ⟨_, hs⟩ rfl
  · exact Finset.sum_congr rfl fun k _ => by rw [xblock_apply m c t p k ⟨_, hr⟩ rfl, yblock_apply m c t q k ⟨_, hs⟩ rfl]

/-! ## The tiles cover the result -/

/-- An entry of the result lies in a grid point's tile iff each coordinate lies in the tile's range. -/
theorem mem_tile (t : Fin cfg0.N) (i : S8192x8192.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3).slice (win0_3.rect t)).set ↔ _
  rw [View.set_slice_whole, Rect.mem_set_unit]
  exact Iff.rfl

/-- Every entry (r, s) of the result lies in the tile (r / 1024, s / 1024), which some grid point writes back. -/
theorem covered (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := tile_of ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_tile]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-! ## The result array and the run -/

/-- After the last grid point the result array is the Gaussian kernel matrix of the two arguments. -/
theorem result (c : Dev nD) :
    (dats m 0 c).arrAt 3 cfg0.N
      = Cert.Rbf.gauss (m ((c : Thread nD τ).loc main_arg0)) (m ((c : Thread nD τ).loc main_arg1)) :=
  (dats m 0 c).arrAt_eq_of_cover 3 _ (fun t _ => flushed_eq m c t) covered

/-- Every weakly fair execution of the program terminates with the result array at the Gaussian kernel matrix of the two
    arguments and the arguments unchanged. -/
theorem run : θ_run defs (onTc (τ := τ) (main (F := Ideal))) ⟨m, fun _ => 0, ρ⟩ fun r => ∀ c : Dev nD,
      r.2.mem ((c : Thread nD τ).loc main_v3)
        = Cert.Rbf.gauss (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩)
    (Cert.KernelIdeal.Value.run_blocks m ρ)

end Cert.KernelIdeal.Whole

end
-- ==== Proof.lean ====
/-
  The Gaussian (radial basis function) kernel matrix K (p, q) = exp (−max (‖x_p‖² + ‖y_q‖² − 2 ⟨x_p, y_q⟩) 0) of two
  [8192, 128] point sets, computed tile by tile on an 8 × 8 grid, against the same formula computed on whole arrays.

  Both programs evaluate the same expression of the same three quantities; they differ only in how the quantities are
  produced. The tiled program sums the squares of a block's rows inside the tile, reads the squared norms of y's rows from a
  row prepared before the grid starts, and takes the inner products of 1024 rows of x with 1024 rows of y by one product
  contracted over the 128 coordinates; the whole-array program sums rows and contracts over the full arrays. Over the
  extended reals every one of these is the plain sum over the 128 coordinates, so both results are the one function
  `Cert.Rbf.gauss` of the arguments, entry by entry. No law of arithmetic beyond 0 + s = s is used, so the finiteness of
  the inputs is never needed.

  The modules: `RbfSpec` states the function; `RefValue` reads the whole-array program's result as it; `Tile` reads one
  tile's stored value at an entry; `YNorms` reads the prepared row of norms; `Whole` identifies each grid point's blocks
  with rows of the arguments, shows the 64 tiles cover the result, and restates the tiled program's run.
-/
import proofs.«104395_j65481071405325_2_alg».proof.Defs
import proofs.«104395_j65481071405325_2_alg».proof.Proof.Gen.Kernel
import proofs.«104395_j65481071405325_2_alg».proof.Proof.Gen.Kernel.Skeleton
import proofs.«104395_j65481071405325_2_alg».proof.Proof.Gen.Kernel.Launch
import proofs.«104395_j65481071405325_2_alg».proof.Proof.Gen.Kernel.Points
import proofs.«104395_j65481071405325_2_alg».proof.Proof.Gen.Kernel.Frame
import proofs.«104395_j65481071405325_2_alg».proof.Proof.Gen.KernelIdeal
import proofs.«104395_j65481071405325_2_alg».proof.Proof.Gen.KernelIdeal.Skeleton
import proofs.«104395_j65481071405325_2_alg».proof.Proof.Gen.KernelIdeal.Launch
import proofs.«104395_j65481071405325_2_alg».proof.Proof.Gen.KernelIdeal.Points
import proofs.«104395_j65481071405325_2_alg».proof.Proof.Gen.KernelIdeal.Frame
import proofs.«104395_j65481071405325_2_alg».proof.Proof.Gen.KernelIdeal.Value
import proofs.«104395_j65481071405325_2_alg».proof.Proof.Gen.ReferenceIdeal
import proofs.«104395_j65481071405325_2_alg».proof.Proof.Gen.ReferenceIdeal.Run
import proofs.«104395_j65481071405325_2_alg».proof.Proof.Gen.ReferenceIdeal.Read
import proofs.«104395_j65481071405325_2_alg».proof.Proof.Gen.Pre_finite_inputs
import proofs.«104395_j65481071405325_2_alg».proof.Proof.RefValue
import proofs.«104395_j65481071405325_2_alg».proof.Proof.Whole
import Idealize.ShloMosaic.Adequacy
import Idealize.ShloMosaic.Init

noncomputable section

namespace Cert.Proof

open Idealize.ShloMosaic Idealize.SL.Sem

/-- The word-level program runs to the end, faults nowhere and leaves its arguments as they were. -/
theorem frame_kernel : Cert.frame_Kernel := fun m ρ _ => Cert.Kernel.Gen.frame m ρ

/-- So does the program read over the extended reals. -/
theorem frame_kernel_ideal : Cert.frame_KernelIdeal := fun m ρ _ => Cert.KernelIdeal.Gen.frame m ρ

/-- The whole-array program's run, with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended-real reading, so there is nothing to preserve. -/
theorem preserves : Cert.preserves_Kernel_KernelIdeal := trivial

/-- From memories agreeing on x and y both programs end with the Gaussian kernel matrix of x and y in their result. -/
theorem algebraic : Cert.algebraic_KernelIdeal_ReferenceIdeal := by
  intro m ρ m' ρ' _ hagree
  refine ⟨fun c => Cert.Rbf.gauss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
